-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S600000 : Shape := ⟨1, ![600000]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000 : S_.BroadcastsInDim S600000 (![] : Fin 0 → Fin S600000.rank)
  reducesTo_S600000_S_d0 : S600000.ReducesTo [0] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S50000x128 .f32) (main_arg1 : IVec S2x600000 32) (main_arg2 : FVec F S600000 .f32) (main_arg3 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000 .f32 := Host.absf main_arg2
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S50000x128 : Shape := ⟨2, ![50000, 128]⟩
abbrev S2x600000 : Shape := ⟨2, ![2, 600000]⟩
abbrev S600000 : Shape := ⟨1, ![600000]⟩
abbrev S128x128 : Shape := ⟨2, ![128, 128]⟩
abbrev S2000x128 : Shape := ⟨2, ![2000, 128]⟩
abbrev S50000 : Shape := ⟨1, ![50000]⟩
abbrev S1x600000 : Shape := ⟨2, ![1, 600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩

abbrev nBuf : Space → Nat
  | .hbm => 79
  | .vmem => 5
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000, .f32⟩
  | .hbm, ⟨3, _⟩ => ⟨S128x128, .f32⟩
  | .hbm, ⟨4, _⟩ => ⟨S128x128, .f32⟩
  | .hbm, ⟨5, _⟩ => ⟨S50000x128, .f32⟩
  | .hbm, ⟨6, _⟩ => ⟨S50000, .i32⟩
  | .hbm, ⟨7, _⟩ => ⟨S1x600000, .i32⟩
  | .hbm, ⟨8, _⟩ => ⟨S600000, .i32⟩
  | .hbm, ⟨9, _⟩ => ⟨S650000, .i32⟩
  | .hbm, ⟨10, _⟩ => ⟨S1x600000, .i32⟩
  | .hbm, ⟨11, _⟩ => ⟨S600000, .i32⟩
  | .hbm, ⟨12, _⟩ => ⟨S650000, .i32⟩
  | .hbm, ⟨13, _⟩ => ⟨S_, .f32⟩
  | .hbm, ⟨14, _⟩ => ⟨S50000, .f32⟩
  | .hbm, ⟨15, _⟩ => ⟨S650000, .f32⟩
  | .hbm, ⟨16, _⟩ => ⟨S_, .f32⟩
  | .hbm, ⟨17, _⟩ => ⟨S50000, .f32⟩
  | .hbm, ⟨18, _⟩ => ⟨S650000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S650000, .i32⟩
  | .hbm, ⟨29, _⟩ => ⟨S650000, .i1⟩
  | .hbm, ⟨30, _⟩ => ⟨S_, .i32⟩
  | .hbm, ⟨31, _⟩ => ⟨S650000, .i32⟩
  | .hbm, ⟨32, _⟩ => ⟨S650000, .i32⟩
  | .hbm, ⟨33, _⟩ => ⟨S650000, .i32⟩
  | .hbm, ⟨34, _⟩ => ⟨S650000x1, .i32⟩
  | .hbm, ⟨35, _⟩ => ⟨S650000, .f32⟩
  | .hbm, ⟨36, _⟩ => ⟨S650000, .f32⟩
  | .hbm, ⟨37, _⟩ => ⟨S_, .i32⟩
  | .hbm, ⟨38, _⟩ => ⟨S650000, .i32⟩
  | .hbm, ⟨39, _⟩ => ⟨S650000, .i1⟩
  | .hbm, ⟨40, _⟩ => ⟨S_, .i32⟩
  | .hbm, ⟨41, _⟩ => ⟨S650000, .i32⟩
  | .hbm, ⟨42, _⟩ => ⟨S650000, .i32⟩
  | .hbm, ⟨43, _⟩ => ⟨S650000, .i32⟩
  | .hbm, ⟨44, _⟩ => ⟨S650000x1, .i32⟩
  | .hbm, ⟨45, _⟩ => ⟨S650000, .f32⟩
  | .hbm, ⟨46, _⟩ => ⟨S650000, .f32⟩
  | .hbm, ⟨47, _⟩ => ⟨S650000x1, .f32⟩
  | .hbm, ⟨48, _⟩ => ⟨S_, .i32⟩
  | .hbm, ⟨49, _⟩ => ⟨S650000, .i32⟩
  | .hbm, ⟨50, _⟩ => ⟨S650000, .i1⟩
  | .hbm, ⟨51, _⟩ => ⟨S_, .i32⟩
  | .hbm, ⟨52, _⟩ => ⟨S650000, .i32⟩
  | .hbm, ⟨53, _⟩ => ⟨S650000, .i32⟩
  | .hbm, ⟨54, _⟩ => ⟨S650000, .i32⟩
  | .hbm, ⟨55, _⟩ => ⟨S650000x1, .i32⟩
  | .hbm, ⟨56, _⟩ => ⟨S650000x128, .f32⟩
  | .hbm, ⟨57, _⟩ => ⟨S650000x128, .f32⟩
  | .hbm, ⟨58, _⟩ => ⟨S650000x128, .f32⟩
  | .hbm, ⟨59, _⟩ => ⟨S_, .f32⟩
  | .hbm, ⟨60, _⟩ => ⟨S50000x128, .f32⟩
  | .hbm, ⟨61, _⟩ => ⟨S650000x1, .i32⟩
  | .hbm, ⟨62, _⟩ => ⟨S50000x128, .f32⟩
  | .hbm, ⟨63, _⟩ => ⟨S650000x1, .f32⟩
  | .hbm, ⟨64, _⟩ => ⟨S_, .i32⟩
  | .hbm, ⟨65, _⟩ => ⟨S650000, .i32⟩
  | .hbm, ⟨66, _⟩ => ⟨S650000, .i1⟩
  | .hbm, ⟨67, _⟩ => ⟨S_, .i32⟩
  | .hbm, ⟨68, _⟩ => ⟨S650000, .i32⟩
  | .hbm, ⟨69, _⟩ => ⟨S650000, .i32⟩
  | .hbm, ⟨70, _⟩ => ⟨S650000, .i32⟩
  | .hbm, ⟨71, _⟩ => ⟨S650000x1, .i32⟩
  | .hbm, ⟨72, _⟩ => ⟨S650000x128, .f32⟩
  | .hbm, ⟨73, _⟩ => ⟨S650000x128, .f32⟩
  | .hbm, ⟨74, _⟩ => ⟨S650000x128, .f32⟩
  | .hbm, ⟨75, _⟩ => ⟨S_, .f32⟩
  | .hbm, ⟨76, _⟩ => ⟨S50000x128, .f32⟩
  | .hbm, ⟨77, _⟩ => ⟨S650000x1, .i32⟩
  | .hbm, ⟨78, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_c : Ref sig .tc := ⟨.hbm, 27, rfl⟩
abbrev main_v19 : Ref sig .tc := ⟨.hbm, 28, rfl⟩
abbrev main_v20 : Ref sig .tc := ⟨.hbm, 29, rfl⟩
abbrev main_c_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_4 : Ref sig .tc := ⟨.hbm, 37, rfl⟩
abbrev main_v27 : Ref sig .tc := ⟨.hbm, 38, rfl⟩
abbrev main_v28 : Ref sig .tc := ⟨.hbm, 39, rfl⟩
abbrev main_c_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c_6 : Ref sig .tc := ⟨.hbm, 48, rfl⟩
abbrev main_v36 : Ref sig .tc := ⟨.hbm, 49, rfl⟩
abbrev main_v37 : Ref sig .tc := ⟨.hbm, 50, rfl⟩
abbrev main_c_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_c_9 : Ref sig .tc := ⟨.hbm, 64, rfl⟩
abbrev main_v49 : Ref sig .tc := ⟨.hbm, 65, rfl⟩
abbrev main_v50 : Ref sig .tc := ⟨.hbm, 66, rfl⟩
abbrev main_c_10 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_11 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S128x128_S128x128_1_0 : S128x128.Transposes [1, 0] S128x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S50000 : S_.BroadcastsInDim S50000 (![] : Fin 0 → Fin S50000.rank)
  bcast_S650000_S650000x1_0 : S650000.BroadcastsInDim S650000x1 (![0] : Fin 1 → Fin S650000x1.rank)
  bcast_S_S650000 : S_.BroadcastsInDim S650000 (![] : Fin 0 → Fin S650000.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  dot_S2000x128_S128x128_S2000x128_1_0_0_1_n_n_wf : DotDims.WF S2000x128 S128x128 S2000x128 [1] [0] [0] [1] [] []
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S600000 : Shape := ⟨1, ![600000]⟩
abbrev S128x128 : Shape := ⟨2, ![128, 128]⟩
abbrev S50000 : Shape := ⟨1, ![50000]⟩
abbrev S1x600000 : Shape := ⟨2, ![1, 600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩

abbrev nBuf : Space → Nat
  | .hbm => 79
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000, .f32⟩
  | .hbm, ⟨3, _⟩ => ⟨S128x128, .f32⟩
  | .hbm, ⟨4, _⟩ => ⟨S128x128, .f32⟩
  | .hbm, ⟨5, _⟩ => ⟨S50000x128, .f32⟩
  | .hbm, ⟨6, _⟩ => ⟨S50000, .i32⟩
  | .hbm, ⟨7, _⟩ => ⟨S1x600000, .i32⟩
  | .hbm, ⟨8, _⟩ => ⟨S600000, .i32⟩
  | .hbm, ⟨9, _⟩ => ⟨S650000, .i32⟩
  | .hbm, ⟨10, _⟩ => ⟨S1x600000, .i32⟩
  | .hbm, ⟨11, _⟩ => ⟨S600000, .i32⟩
  | .hbm, ⟨12, _⟩ => ⟨S650000, .i32⟩
  | .hbm, ⟨13, _⟩ => ⟨S_, .f32⟩
  | .hbm, ⟨14, _⟩ => ⟨S50000, .f32⟩
  | .hbm, ⟨15, _⟩ => ⟨S650000, .f32⟩
  | .hbm, ⟨16, _⟩ => ⟨S_, .f32⟩
  | .hbm, ⟨17, _⟩ => ⟨S50000, .f32⟩
  | .hbm, ⟨18, _⟩ => ⟨S650000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S650000, .i32⟩
  | .hbm, ⟨29, _⟩ => ⟨S650000, .i1⟩
  | .hbm, ⟨30, _⟩ => ⟨S_, .i32⟩
  | .hbm, ⟨31, _⟩ => ⟨S650000, .i32⟩
  | .hbm, ⟨32, _⟩ => ⟨S650000, .i32⟩
  | .hbm, ⟨33, _⟩ => ⟨S650000, .i32⟩
  | .hbm, ⟨34, _⟩ => ⟨S650000x1, .i32⟩
  | .hbm, ⟨35, _⟩ => ⟨S650000, .f32⟩
  | .hbm, ⟨36, _⟩ => ⟨S650000, .f32⟩
  | .hbm, ⟨37, _⟩ => ⟨S_, .i32⟩
  | .hbm, ⟨38, _⟩ => ⟨S650000, .i32⟩
  | .hbm, ⟨39, _⟩ => ⟨S650000, .i1⟩
  | .hbm, ⟨40, _⟩ => ⟨S_, .i32⟩
  | .hbm, ⟨41, _⟩ => ⟨S650000, .i32⟩
  | .hbm, ⟨42, _⟩ => ⟨S650000, .i32⟩
  | .hbm, ⟨43, _⟩ => ⟨S650000, .i32⟩
  | .hbm, ⟨44, _⟩ => ⟨S650000x1, .i32⟩
  | .hbm, ⟨45, _⟩ => ⟨S650000, .f32⟩
  | .hbm, ⟨46, _⟩ => ⟨S650000, .f32⟩
  | .hbm, ⟨47, _⟩ => ⟨S650000x1, .f32⟩
  | .hbm, ⟨48, _⟩ => ⟨S_, .i32⟩
  | .hbm, ⟨49, _⟩ => ⟨S650000, .i32⟩
  | .hbm, ⟨50, _⟩ => ⟨S650000, .i1⟩
  | .hbm, ⟨51, _⟩ => ⟨S_, .i32⟩
  | .hbm, ⟨52, _⟩ => ⟨S650000, .i32⟩
  | .hbm, ⟨53, _⟩ => ⟨S650000, .i32⟩
  | .hbm, ⟨54, _⟩ => ⟨S650000, .i32⟩
  | .hbm, ⟨55, _⟩ => ⟨S650000x1, .i32⟩
  | .hbm, ⟨56, _⟩ => ⟨S650000x128, .f32⟩
  | .hbm, ⟨57, _⟩ => ⟨S650000x128, .f32⟩
  | .hbm, ⟨58, _⟩ => ⟨S650000x128, .f32⟩
  | .hbm, ⟨59, _⟩ => ⟨S_, .f32⟩
  | .hbm, ⟨60, _⟩ => ⟨S50000x128, .f32⟩
  | .hbm, ⟨61, _⟩ => ⟨S650000x1, .i32⟩
  | .hbm, ⟨62, _⟩ => ⟨S50000x128, .f32⟩
  | .hbm, ⟨63, _⟩ => ⟨S650000x1, .f32⟩
  | .hbm, ⟨64, _⟩ => ⟨S_, .i32⟩
  | .hbm, ⟨65, _⟩ => ⟨S650000, .i32⟩
  | .hbm, ⟨66, _⟩ => ⟨S650000, .i1⟩
  | .hbm, ⟨67, _⟩ => ⟨S_, .i32⟩
  | .hbm, ⟨68, _⟩ => ⟨S650000, .i32⟩
  | .hbm, ⟨69, _⟩ => ⟨S650000, .i32⟩
  | .hbm, ⟨70, _⟩ => ⟨S650000, .i32⟩
  | .hbm, ⟨71, _⟩ => ⟨S650000x1, .i32⟩
  | .hbm, ⟨72, _⟩ => ⟨S650000x128, .f32⟩
  | .hbm, ⟨73, _⟩ => ⟨S650000x128, .f32⟩
  | .hbm, ⟨74, _⟩ => ⟨S650000x128, .f32⟩
  | .hbm, ⟨75, _⟩ => ⟨S_, .f32⟩
  | .hbm, ⟨76, _⟩ => ⟨S50000x128, .f32⟩
  | .hbm, ⟨77, _⟩ => ⟨S650000x1, .i32⟩
  | .hbm, ⟨78, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_c : Ref sig .tc := ⟨.hbm, 27, rfl⟩
abbrev main_v19 : Ref sig .tc := ⟨.hbm, 28, rfl⟩
abbrev main_v20 : Ref sig .tc := ⟨.hbm, 29, rfl⟩
abbrev main_c_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_4 : Ref sig .tc := ⟨.hbm, 37, rfl⟩
abbrev main_v27 : Ref sig .tc := ⟨.hbm, 38, rfl⟩
abbrev main_v28 : Ref sig .tc := ⟨.hbm, 39, rfl⟩
abbrev main_c_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c_6 : Ref sig .tc := ⟨.hbm, 48, rfl⟩
abbrev main_v36 : Ref sig .tc := ⟨.hbm, 49, rfl⟩
abbrev main_v37 : Ref sig .tc := ⟨.hbm, 50, rfl⟩
abbrev main_c_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_c_9 : Ref sig .tc := ⟨.hbm, 64, rfl⟩
abbrev main_v49 : Ref sig .tc := ⟨.hbm, 65, rfl⟩
abbrev main_v50 : Ref sig .tc := ⟨.hbm, 66, rfl⟩
abbrev main_c_10 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_11 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩

abbrev nD : Nat := 1
abbrev τ : Topo := Topo.v7x

variable {F : FTy → Type} [FloatOps F]

class Facts₀ : Prop where
  transposes_S128x128_S128x128_1_0 : S128x128.Transposes [1, 0] S128x128
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S50000 : S_.BroadcastsInDim S50000 (![] : Fin 0 → Fin S50000.rank)
  bcast_S650000_S650000x1_0 : S650000.BroadcastsInDim S650000x1 (![0] : Fin 1 → Fin S650000x1.rank)
  bcast_S_S650000 : S_.BroadcastsInDim S650000 (![] : Fin 0 → Fin S650000.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  dot_S50000x128_S128x128_S50000x128_1_0_0_1_n_n_wf : DotDims.WF S50000x128 S128x128 S50000x128 [1] [0] [0] [1] [] []
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf

class Facts : Prop extends Facts₀ where

variable [Facts]
-- ==== Proof.WordTiledRun.lean ====
/-
  The run of the program whose one pipelined kernel multiplies a tall matrix by a square one, tile of rows by tile of rows.

  The program transposes the square matrix on the host, launches the kernel over 25 grid points, and then runs 73 further
  host lines on the product.  At grid point t the kernel is handed rows 2000·t … 2000·t + 1999 of the tall matrix and the
  whole transposed square matrix (fetched once, at the first point: its block index never moves), and it stores into the
  output tile the product of the two, whatever the tile held before (it reads the output tile once and discards the value).
  So after the body each input tile is as it was found and the output tile is one function, `tile`, of the two input
  tiles.  The host lines after the kernel write only buffers of their own: no pipeline array and no argument.  From this
  the library's run theorem for "host lines, one region, host lines" gives: every weakly fair execution terminates, the
  pipeline's arrays end at what the write-backs computed, and every other buffer at what the later lines make of it; in
  particular the four arguments end as they were launched.
-/
import proofs.«177333_j43026982371446_1_alg».proof.Proof.Gen.Kernel.Launch
import proofs.«177333_j43026982371446_1_alg».proof.Proof.Gen.Kernel.Skeleton
import proofs.«177333_j43026982371446_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Tiled

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the kernel -/

/-- The buffers' contents when the kernel is launched: the launch memory after the one host line before it (the transpose). -/
abbrev found₀ (c : Dev nD) : Valuation τ sig (Elt F) := StableHlo.after (List.flatten [hostOps0]) (fun b => m (c, b))
/-- The same, read at a buffer of the core. -/
abbrev found (c : Dev nD) (b : Ref sig .tc) : Buf (Elt F) ((c : Thread nD τ).loc b) := found₀ m c (Proc.devRef .tc b)

/-- The host lines after the kernel, in their three stretches. -/
abbrev later : List (List (HloOp τ sig (Elt F))) := [hostOps1, hostOps1_1, hostOps1_2]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

set_option maxHeartbeats 8000000 in
/-- The program is: the transpose, the kernel's region, the later lines. -/
theorem main_around (𝒱₀ : Variants) : Pipeline.HMainK (Ix := Unit) (Name := ℕ) (U := UR sig nD τ) (Lvl := ℕ) cfgs 0 defs₀ 𝒱₀ m (main (F := F)) (found m)
      (fun _ => Pipeline.chain [StableHlo.seq hostOps1, StableHlo.seq hostOps1_1, StableHlo.seq hostOps1_2]) :=
  Pipeline.hmain_around cfgs 0 defs₀ 𝒱₀ m main [hostOps0] [hostOps1, hostOps1_1, hostOps1_2] (by simp only [List.Forall]; exact hostOps0_sub)
    (by simp only [List.Forall]; exact hostOps0_fresh) main_chain

/-- The later lines touch only unscoped buffers of the core. -/
theorem later_sub : ∀ ops ∈ (later : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-- They allocate nothing. -/
theorem later_fresh : ∀ ops ∈ (later : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- Every host line writes exactly its own result buffer; a buffer that is none of those results is written by no line.
    The goal is a conjunction, one inequality of buffers per line, each decided. -/
local macro "no_line_writes" : tactic => `(tactic| (
  simp only [hostOps0, hostOps1, hostOps1_1, hostOps1_2, List.flatten_cons, List.flatten_nil, List.append_nil, List.cons_append,
    List.nil_append, List.Forall, StableHlo.nullary_writes, StableHlo.unary_writes, StableHlo.binary_writes, StableHlo.ternary_writes,
    StableHlo.reshape_writes, Finset.mem_singleton]
  repeat' apply And.intro
  all_goals exact StableHlo.devRef_ne_of_ne (by decide)))

theorem later_spares_x : (List.flatten later : List (HloOp τ sig (Elt F))).Forall fun op => Proc.devRef .tc main_arg0 ∉ op.writes := by
  no_line_writes
theorem later_spares_idx : (List.flatten later : List (HloOp τ sig (Elt F))).Forall fun op => Proc.devRef .tc main_arg1 ∉ op.writes := by
  no_line_writes
theorem later_spares_wgt : (List.flatten later : List (HloOp τ sig (Elt F))).Forall fun op => Proc.devRef .tc main_arg2 ∉ op.writes := by
  no_line_writes
theorem later_spares_W : (List.flatten later : List (HloOp τ sig (Elt F))).Forall fun op => Proc.devRef .tc main_arg3 ∉ op.writes := by
  no_line_writes
theorem later_spares_Wt : (List.flatten later : List (HloOp τ sig (Elt F))).Forall fun op => Proc.devRef .tc main_v0 ∉ op.writes := by
  no_line_writes
theorem later_spares_prod : (List.flatten later : List (HloOp τ sig (Elt F))).Forall fun op => Proc.devRef .tc main_v1 ∉ op.writes := by
  no_line_writes

/-- The later lines write no array of the pipeline (the tall matrix, the transposed square one, the product). -/
theorem later_keeps : ∀ ops ∈ (later : List (List (HloOp τ sig (Elt F)))), ∀ op ∈ ops,
    ∀ w, Proc.devRef .tc (Pipeline.arrRef spec0 w) ∉ op.writes := by
  intro ops hops op hop w
  have hmem : op ∈ (List.flatten later : List (HloOp τ sig (Elt F))) := List.mem_flatten.mpr ⟨ops, hops, hop⟩
  match w with
  | ⟨0, _⟩ => exact (List.forall_iff_forall_mem.mp later_spares_x) op hmem
  | ⟨1, _⟩ => exact (List.forall_iff_forall_mem.mp later_spares_Wt) op hmem
  | ⟨2, _⟩ => exact (List.forall_iff_forall_mem.mp later_spares_prod) op hmem

/-- The transpose writes its own result only: the kernel finds each argument as launched. -/
theorem found_x (c : Dev nD) : found m c main_arg0 = m ((c : Thread nD τ).loc main_arg0) :=
  StableHlo.after_of_forall_not_mem (b := Proc.devRef .tc main_arg0) _ _ (List.forall_iff_forall_mem.mp (by no_line_writes))
theorem found_idx (c : Dev nD) : found m c main_arg1 = m ((c : Thread nD τ).loc main_arg1) :=
  StableHlo.after_of_forall_not_mem (b := Proc.devRef .tc main_arg1) _ _ (List.forall_iff_forall_mem.mp (by no_line_writes))
theorem found_wgt (c : Dev nD) : found m c main_arg2 = m ((c : Thread nD τ).loc main_arg2) :=
  StableHlo.after_of_forall_not_mem (b := Proc.devRef .tc main_arg2) _ _ (List.forall_iff_forall_mem.mp (by no_line_writes))
theorem found_W (c : Dev nD) : found m c main_arg3 = m ((c : Thread nD τ).loc main_arg3) :=
  StableHlo.after_of_forall_not_mem (b := Proc.devRef .tc main_arg3) _ _ (List.forall_iff_forall_mem.mp (by no_line_writes))

/-- A buffer that is no array of the pipeline and that no later line writes ends as the kernel found it. -/
theorem ends_as_found (dats : (p : Fin 1) → (c : Dev nD) → Dat τ (Elt F) Unit ℕ (UR sig nD τ) ℕ (cfgs p) c) (c : Dev nD) (b : Ref sig .tc)
    (hb : (List.flatten later : List (HloOp τ sig (Elt F))).Forall fun op => Proc.devRef .tc b ∉ op.writes)
    (hw : ∀ w, Pipeline.arrRef spec0 w ≠ b) :
    Pipeline.afterTail₀ cfgs dats 0 (found₀ m) later c b = found m c b := by
  unfold Pipeline.afterTail₀
  rw [StableHlo.after_of_forall_not_mem (b := Proc.devRef .tc b) _ _ (List.forall_iff_forall_mem.mp hb),
    Pipeline.withArrays_of_ne _ c (found₀ m c) _ b hw]

/-! ## The tiles -/

/-- Window `w`'s tile at grid point `t`, read off its array as the kernel finds it. -/
def tileOf (c : Dev nD) (w : Fin cfg0.W) (t : Fin cfg0.N) : ((cfg0.win w).xblock (cfg0.grid.coords t)).Idx → Elt F (cfg0.win w).elt :=
  ((cfg0.win w).blk t).view.read (Elt F) (found m c (Pipeline.arrRef spec0 w))

/-- The staging buffer of the tall matrix holds the point's tile of rows whenever the body runs: it is fetched at every point. -/
theorem rows_staged {c : Dev nD} (dat : Dat τ (Elt F) Unit ℕ (UR sig nD τ) ℕ cfg0 c) (hA : dat.A 0 = found m c (Pipeline.arrRef spec0 0))
    (hafter : ∀ t, dat.after 0 t = tileOf m c 0 t) (t : Fin cfg0.N) (d) : dat.before 0 t d = tileOf m c 0 t :=
  (dat.before_in_eq_fetched 0 rfl (fun _ => rfl) (fun _ _ _ => rfl) (fun t => by rw [hafter]; unfold Dat.blockOf tileOf; rw [hA]; try rfl) t d).trans
    (by unfold Dat.fetched Dat.blockOf tileOf; rw [hA]; try rfl)
/-- The staging buffer of the square matrix holds the whole matrix whenever the body runs: fetched at the first point, and
    at a later point its block index has not moved and the body left it in place. -/
theorem square_staged {c : Dev nD} (dat : Dat τ (Elt F) Unit ℕ (UR sig nD τ) ℕ cfg0 c) (hA : dat.A 1 = found m c (Pipeline.arrRef spec0 1))
    (hafter : ∀ t, dat.after 1 t = tileOf m c 1 t) (t : Fin cfg0.N) (d) : dat.before 1 t d = tileOf m c 1 t :=
  (dat.before_in_eq_fetched 1 rfl (fun _ => rfl) (fun _ _ _ => rfl) (fun t => by rw [hafter]; unfold Dat.blockOf tileOf; rw [hA]; try rfl) t d).trans
    (by unfold Dat.fetched Dat.blockOf tileOf; rw [hA]; try rfl)

/-! ## The body -/

abbrev wholeRows : Rect S2000x128 := Rect.unit (s := S2000x128) ![0, 0] S2000x128.size inb_S2000x128_S2000x128_0_0
abbrev wholeSquare : Rect S128x128 := Rect.unit (s := S128x128) ![0, 0] S128x128.size inb_S128x128_S128x128_0_0

/-- What the body leaves in the output tile: its one store, through the whole tile, of the product of the two input tiles. -/
def tile (x0 : Vec F S2000x128 .f32) (x1 : Vec F S128x128 .f32) : Vec F S2000x128 .f32 :=
  View.canon [⟨wholeRows, k0_pay1 (View.ld x0 wholeRows) (View.ld x1 wholeSquare)⟩]

/-- That store covers the tile. -/
theorem tile_covered (p0 : Vec F S2000x128 .f32) (y : S2000x128.Idx) :
    ∃ pc ∈ ([⟨wholeRows, p0⟩] : List (View.Piece (Elt F) S2000x128 .f32)), y ∈ pc.1.set :=
  View.cover_of_tiled [⟨wholeRows, p0⟩] S2000x128.size (by rfl) y

set_option maxHeartbeats 1000000 in
/-- The body on whole staging buffers: the inputs' at `x0`, `x1`, the output's at anything.  It loads both inputs, loads
    the output (a value nothing uses), stores the product through the whole output tile and returns: the inputs as they
    were, the output at `tile x0 x1`. -/
theorem body_runs (c : Dev nD) (E : Set ℕ) (i : grid0.Coords) (arg1 : Memref sig .tc .vmem S2000x128 .f32) (harg1 : arg1.IsWhole)
    (arg2 : Memref sig .tc .vmem S128x128 .f32) (harg2 : arg2.IsWhole) (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (tile x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tile_covered _)

/-! ## The proof data -/

/-- The arrays as the kernel finds them; after the body at point `t` each input's buffer at its tile and the output's at the
    product of the two; the invariant the scoped rest, untouched; nothing owed; full shares. -/
def dats (_ : Fin 1) (c : Dev nD) : Dat τ (Elt F) Unit ℕ (UR sig nD τ) ℕ cfg0 c where
  A w := found m c (Pipeline.arrRef spec0 w)
  after w t := match w with
    | ⟨0, _⟩ => tileOf m c 0 t
    | ⟨1, _⟩ => tileOf m c 1 t
    | ⟨2, _⟩ => tile (tileOf m c 0 t) (tileOf m c 1 t)
  Φ _ := Pipeline.ΦA spec0 c
  q _ := fullShare
  owed _ := 0

theorem arrays_found (c : Dev nD) (w : Fin cfg0.W) : (dats m 0 c).A w = found m c (Pipeline.arrRef spec0 w) := by
  dsimp only [dats]

theorem left_rows (c : Dev nD) (t : Fin cfg0.N) : (dats m 0 c).after 0 t = tileOf m c 0 t := by dsimp only [dats]
theorem left_square (c : Dev nD) (t : Fin cfg0.N) : (dats m 0 c).after 1 t = tileOf m c 1 t := by dsimp only [dats]
theorem left_product (c : Dev nD) (t : Fin cfg0.N) : (dats m 0 c).after 2 t = tile (tileOf m c 0 t) (tileOf m c 1 t) := by dsimp only [dats]

theorem handed_rows (c : Dev nD) (t : Fin cfg0.N) (d) : (dats m 0 c).before 0 t d = tileOf m c 0 t :=
  rows_staged m (dats m 0 c) (arrays_found m c 0) (left_rows m c) t d
theorem handed_square (c : Dev nD) (t : Fin cfg0.N) (d) : (dats m 0 c).before 1 t d = tileOf m c 1 t :=
  square_staged m (dats m 0 c) (arrays_found m c 1) (left_square m c) t d

/-! ## The body at a grid point -/

/-- What the body is called with at point `t`, -/
def handed (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem body_at (c : Dev nD) (t : Fin cfg0.N) :
    handed m c t ⊢ wp frame (wpE (defs₀ (F := F)) Variants.none c none) Set.univ (bodyAt0 t) (fun _ => returned m c t) := by
  unfold handed returned bodyAt0
  simp only [handed_rows, handed_square]
  rw [show (dats m 0 c).Φ t.succ = (dats m 0 c).Φ t.castSucc from rfl,
    show (dats m 0 c).owesAt () t.succ = (dats m 0 c).owesAt () t.castSucc from rfl,
    left_rows, left_square, left_product]
  iintro ⟨HΦ, Ho, ⟨%d0, H0⟩, ⟨%d1, H1⟩, ⟨%d2, H2⟩⟩
  iapply (body_runs c Set.univ (grid0.coords t) _ _ _ _ _ _ (tileOf m c 0 t) (tileOf m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_everywhere (c : Dev nD) : BodyObligation (dats (F := F) m 0 c) (defs₀ (F := F)) Variants.none () Set.univ := fun t => by
  rw [bigSep_W0, bigSep_W0]
  exact body_at m c t

/-! ## The run -/

set_option maxHeartbeats 8000000 in
set_option backward.isDefEq.respectTransparency.types false in
/-- From any memory with zero counters every weakly fair execution of the program terminates; at the end each array of the
    pipeline holds what the write-backs computed from the proof data, and every other unscoped buffer what the later
    lines make of it. -/
theorem run_main : θ_run defs (onTc (τ := τ) (main (F := F))) (s₀ m ρ) (Pipeline.FramePost cfgs (dats m) 0 (Pipeline.afterTail₀ cfgs (dats m) 0 (found₀ m) later)) :=
  Pipeline.θ_run_frame_around cfgs (dats m) (0 : Fin 1) launch0 defs₀ Variants.none m ρ main
    (hbody := fun c => (body_everywhere m c).loose) (hshare := fun c => (dats m 0 c).share_full fun _ => rfl)
    (howed := fun _ _ => rfl) (V₀ := found₀ m) (opss := later) (hsub := later_sub) (hfresh := later_fresh) (hkeep := later_keeps)
    (hmain := main_around m Variants.none) (hA := arrays_found m) (hΦ := fun _ _ => rfl)

/-- In a final state of the run the four arguments are as they were launched: the tall matrix is an input array of the
    pipeline, the other three are buffers no array and no later line touches. -/
theorem args_kept (r : PUnit × MemSt nD τ sig (Elt F))
    (h : Pipeline.FramePost cfgs (dats m) 0 (Pipeline.afterTail₀ cfgs (dats m) 0 (found₀ m) later) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).1 0).trans (((dats m 0 c).arrAt_in 0 rfl _).trans ((arrays_found m c 0).trans (found_x m c))),
   ((h c).2 main_arg1 (Pipeline.mem_restRefs_of main_arg1 (by decide) (by decide))).trans
     ((ends_as_found m (dats m) c main_arg1 later_spares_idx (by decide)).trans (found_idx m c)),
   ((h c).2 main_arg2 (Pipeline.mem_restRefs_of main_arg2 (by decide) (by decide))).trans
     ((ends_as_found m (dats m) c main_arg2 later_spares_wgt (by decide)).trans (found_wgt m c)),
   ((h c).2 main_arg3 (Pipeline.mem_restRefs_of main_arg3 (by decide) (by decide))).trans
     ((ends_as_found m (dats m) c main_arg3 later_spares_W (by decide)).trans (found_W m c))⟩

/-- Every weakly fair execution terminates without a fault and leaves the four arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => args_kept m r h c) (run_main m ρ)

end Cert.Kernel.Tiled

end
-- ==== Proof.IdealTiledRun.lean ====
/-
  The run of the program whose one pipelined kernel multiplies a tall matrix by a square one, tile of rows by tile of rows.

  The program transposes the square matrix on the host, launches the kernel over 25 grid points, and then runs 73 further
  host lines on the product.  At grid point t the kernel is handed rows 2000·t … 2000·t + 1999 of the tall matrix and the
  whole transposed square matrix (fetched once, at the first point: its block index never moves), and it stores into the
  output tile the product of the two, whatever the tile held before (it reads the output tile once and discards the value).
  So after the body each input tile is as it was found and the output tile is one function, `tile`, of the two input
  tiles.  The host lines after the kernel write only buffers of their own: no pipeline array and no argument.  From this
  the library's run theorem for "host lines, one region, host lines" gives: every weakly fair execution terminates, the
  pipeline's arrays end at what the write-backs computed, and every other buffer at what the later lines make of it; in
  particular the four arguments end as they were launched.
-/
import proofs.«177333_j43026982371446_1_alg».proof.Proof.Gen.KernelIdeal.Launch
import proofs.«177333_j43026982371446_1_alg».proof.Proof.Gen.KernelIdeal.Skeleton
import proofs.«177333_j43026982371446_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Tiled

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the kernel -/

/-- The buffers' contents when the kernel is launched: the launch memory after the one host line before it (the transpose). -/
abbrev found₀ (c : Dev nD) : Valuation τ sig (Elt F) := StableHlo.after (List.flatten [hostOps0]) (fun b => m (c, b))
/-- The same, read at a buffer of the core. -/
abbrev found (c : Dev nD) (b : Ref sig .tc) : Buf (Elt F) ((c : Thread nD τ).loc b) := found₀ m c (Proc.devRef .tc b)

/-- The host lines after the kernel, in their three stretches. -/
abbrev later : List (List (HloOp τ sig (Elt F))) := [hostOps1, hostOps1_1, hostOps1_2]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

set_option maxHeartbeats 8000000 in
/-- The program is: the transpose, the kernel's region, the later lines. -/
theorem main_around (𝒱₀ : Variants) : Pipeline.HMainK (Ix := Unit) (Name := ℕ) (U := UR sig nD τ) (Lvl := ℕ) cfgs 0 defs₀ 𝒱₀ m (main (F := F)) (found m)
      (fun _ => Pipeline.chain [StableHlo.seq hostOps1, StableHlo.seq hostOps1_1, StableHlo.seq hostOps1_2]) :=
  Pipeline.hmain_around cfgs 0 defs₀ 𝒱₀ m main [hostOps0] [hostOps1, hostOps1_1, hostOps1_2] (by simp only [List.Forall]; exact hostOps0_sub)
    (by simp only [List.Forall]; exact hostOps0_fresh) main_chain

/-- The later lines touch only unscoped buffers of the core. -/
theorem later_sub : ∀ ops ∈ (later : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-- They allocate nothing. -/
theorem later_fresh : ∀ ops ∈ (later : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- Every host line writes exactly its own result buffer; a buffer that is none of those results is written by no line.
    The goal is a conjunction, one inequality of buffers per line, each decided. -/
local macro "no_line_writes" : tactic => `(tactic| (
  simp only [hostOps0, hostOps1, hostOps1_1, hostOps1_2, List.flatten_cons, List.flatten_nil, List.append_nil, List.cons_append,
    List.nil_append, List.Forall, StableHlo.nullary_writes, StableHlo.unary_writes, StableHlo.binary_writes, StableHlo.ternary_writes,
    StableHlo.reshape_writes, Finset.mem_singleton]
  repeat' apply And.intro
  all_goals exact StableHlo.devRef_ne_of_ne (by decide)))

theorem later_spares_x : (List.flatten later : List (HloOp τ sig (Elt F))).Forall fun op => Proc.devRef .tc main_arg0 ∉ op.writes := by
  no_line_writes
theorem later_spares_idx : (List.flatten later : List (HloOp τ sig (Elt F))).Forall fun op => Proc.devRef .tc main_arg1 ∉ op.writes := by
  no_line_writes
theorem later_spares_wgt : (List.flatten later : List (HloOp τ sig (Elt F))).Forall fun op => Proc.devRef .tc main_arg2 ∉ op.writes := by
  no_line_writes
theorem later_spares_W : (List.flatten later : List (HloOp τ sig (Elt F))).Forall fun op => Proc.devRef .tc main_arg3 ∉ op.writes := by
  no_line_writes
theorem later_spares_Wt : (List.flatten later : List (HloOp τ sig (Elt F))).Forall fun op => Proc.devRef .tc main_v0 ∉ op.writes := by
  no_line_writes
theorem later_spares_prod : (List.flatten later : List (HloOp τ sig (Elt F))).Forall fun op => Proc.devRef .tc main_v1 ∉ op.writes := by
  no_line_writes

/-- The later lines write no array of the pipeline (the tall matrix, the transposed square one, the product). -/
theorem later_keeps : ∀ ops ∈ (later : List (List (HloOp τ sig (Elt F)))), ∀ op ∈ ops,
    ∀ w, Proc.devRef .tc (Pipeline.arrRef spec0 w) ∉ op.writes := by
  intro ops hops op hop w
  have hmem : op ∈ (List.flatten later : List (HloOp τ sig (Elt F))) := List.mem_flatten.mpr ⟨ops, hops, hop⟩
  match w with
  | ⟨0, _⟩ => exact (List.forall_iff_forall_mem.mp later_spares_x) op hmem
  | ⟨1, _⟩ => exact (List.forall_iff_forall_mem.mp later_spares_Wt) op hmem
  | ⟨2, _⟩ => exact (List.forall_iff_forall_mem.mp later_spares_prod) op hmem

/-- The transpose writes its own result only: the kernel finds each argument as launched. -/
theorem found_x (c : Dev nD) : found m c main_arg0 = m ((c : Thread nD τ).loc main_arg0) :=
  StableHlo.after_of_forall_not_mem (b := Proc.devRef .tc main_arg0) _ _ (List.forall_iff_forall_mem.mp (by no_line_writes))
theorem found_idx (c : Dev nD) : found m c main_arg1 = m ((c : Thread nD τ).loc main_arg1) :=
  StableHlo.after_of_forall_not_mem (b := Proc.devRef .tc main_arg1) _ _ (List.forall_iff_forall_mem.mp (by no_line_writes))
theorem found_wgt (c : Dev nD) : found m c main_arg2 = m ((c : Thread nD τ).loc main_arg2) :=
  StableHlo.after_of_forall_not_mem (b := Proc.devRef .tc main_arg2) _ _ (List.forall_iff_forall_mem.mp (by no_line_writes))
theorem found_W (c : Dev nD) : found m c main_arg3 = m ((c : Thread nD τ).loc main_arg3) :=
  StableHlo.after_of_forall_not_mem (b := Proc.devRef .tc main_arg3) _ _ (List.forall_iff_forall_mem.mp (by no_line_writes))

/-- A buffer that is no array of the pipeline and that no later line writes ends as the kernel found it. -/
theorem ends_as_found (dats : (p : Fin 1) → (c : Dev nD) → Dat τ (Elt F) Unit ℕ (UR sig nD τ) ℕ (cfgs p) c) (c : Dev nD) (b : Ref sig .tc)
    (hb : (List.flatten later : List (HloOp τ sig (Elt F))).Forall fun op => Proc.devRef .tc b ∉ op.writes)
    (hw : ∀ w, Pipeline.arrRef spec0 w ≠ b) :
    Pipeline.afterTail₀ cfgs dats 0 (found₀ m) later c b = found m c b := by
  unfold Pipeline.afterTail₀
  rw [StableHlo.after_of_forall_not_mem (b := Proc.devRef .tc b) _ _ (List.forall_iff_forall_mem.mp hb),
    Pipeline.withArrays_of_ne _ c (found₀ m c) _ b hw]

/-! ## The tiles -/

/-- Window `w`'s tile at grid point `t`, read off its array as the kernel finds it. -/
def tileOf (c : Dev nD) (w : Fin cfg0.W) (t : Fin cfg0.N) : ((cfg0.win w).xblock (cfg0.grid.coords t)).Idx → Elt F (cfg0.win w).elt :=
  ((cfg0.win w).blk t).view.read (Elt F) (found m c (Pipeline.arrRef spec0 w))

/-- The staging buffer of the tall matrix holds the point's tile of rows whenever the body runs: it is fetched at every point. -/
theorem rows_staged {c : Dev nD} (dat : Dat τ (Elt F) Unit ℕ (UR sig nD τ) ℕ cfg0 c) (hA : dat.A 0 = found m c (Pipeline.arrRef spec0 0))
    (hafter : ∀ t, dat.after 0 t = tileOf m c 0 t) (t : Fin cfg0.N) (d) : dat.before 0 t d = tileOf m c 0 t :=
  (dat.before_in_eq_fetched 0 rfl (fun _ => rfl) (fun _ _ _ => rfl) (fun t => by rw [hafter]; unfold Dat.blockOf tileOf; rw [hA]; try rfl) t d).trans
    (by unfold Dat.fetched Dat.blockOf tileOf; rw [hA]; try rfl)
/-- The staging buffer of the square matrix holds the whole matrix whenever the body runs: fetched at the first point, and
    at a later point its block index has not moved and the body left it in place. -/
theorem square_staged {c : Dev nD} (dat : Dat τ (Elt F) Unit ℕ (UR sig nD τ) ℕ cfg0 c) (hA : dat.A 1 = found m c (Pipeline.arrRef spec0 1))
    (hafter : ∀ t, dat.after 1 t = tileOf m c 1 t) (t : Fin cfg0.N) (d) : dat.before 1 t d = tileOf m c 1 t :=
  (dat.before_in_eq_fetched 1 rfl (fun _ => rfl) (fun _ _ _ => rfl) (fun t => by rw [hafter]; unfold Dat.blockOf tileOf; rw [hA]; try rfl) t d).trans
    (by unfold Dat.fetched Dat.blockOf tileOf; rw [hA]; try rfl)

/-! ## The body -/

abbrev wholeRows : Rect S2000x128 := Rect.unit (s := S2000x128) ![0, 0] S2000x128.size inb_S2000x128_S2000x128_0_0
abbrev wholeSquare : Rect S128x128 := Rect.unit (s := S128x128) ![0, 0] S128x128.size inb_S128x128_S128x128_0_0

/-- What the body leaves in the output tile: its one store, through the whole tile, of the product of the two input tiles. -/
def tile (x0 : Vec F S2000x128 .f32) (x1 : Vec F S128x128 .f32) : Vec F S2000x128 .f32 :=
  View.canon [⟨wholeRows, k0_pay1 (View.ld x0 wholeRows) (View.ld x1 wholeSquare)⟩]

/-- That store covers the tile. -/
theorem tile_covered (p0 : Vec F S2000x128 .f32) (y : S2000x128.Idx) :
    ∃ pc ∈ ([⟨wholeRows, p0⟩] : List (View.Piece (Elt F) S2000x128 .f32)), y ∈ pc.1.set :=
  View.cover_of_tiled [⟨wholeRows, p0⟩] S2000x128.size (by rfl) y

set_option maxHeartbeats 1000000 in
/-- The body on whole staging buffers: the inputs' at `x0`, `x1`, the output's at anything.  It loads both inputs, loads
    the output (a value nothing uses), stores the product through the whole output tile and returns: the inputs as they
    were, the output at `tile x0 x1`. -/
theorem body_runs (c : Dev nD) (E : Set ℕ) (i : grid0.Coords) (arg1 : Memref sig .tc .vmem S2000x128 .f32) (harg1 : arg1.IsWhole)
    (arg2 : Memref sig .tc .vmem S128x128 .f32) (harg2 : arg2.IsWhole) (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (tile x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tile_covered _)

/-! ## The proof data -/

/-- The arrays as the kernel finds them; after the body at point `t` each input's buffer at its tile and the output's at the
    product of the two; the invariant the scoped rest, untouched; nothing owed; full shares. -/
def dats (_ : Fin 1) (c : Dev nD) : Dat τ (Elt F) Unit ℕ (UR sig nD τ) ℕ cfg0 c where
  A w := found m c (Pipeline.arrRef spec0 w)
  after w t := match w with
    | ⟨0, _⟩ => tileOf m c 0 t
    | ⟨1, _⟩ => tileOf m c 1 t
    | ⟨2, _⟩ => tile (tileOf m c 0 t) (tileOf m c 1 t)
  Φ _ := Pipeline.ΦA spec0 c
  q _ := fullShare
  owed _ := 0

theorem arrays_found (c : Dev nD) (w : Fin cfg0.W) : (dats m 0 c).A w = found m c (Pipeline.arrRef spec0 w) := by
  dsimp only [dats]

theorem left_rows (c : Dev nD) (t : Fin cfg0.N) : (dats m 0 c).after 0 t = tileOf m c 0 t := by dsimp only [dats]
theorem left_square (c : Dev nD) (t : Fin cfg0.N) : (dats m 0 c).after 1 t = tileOf m c 1 t := by dsimp only [dats]
theorem left_product (c : Dev nD) (t : Fin cfg0.N) : (dats m 0 c).after 2 t = tile (tileOf m c 0 t) (tileOf m c 1 t) := by dsimp only [dats]

theorem handed_rows (c : Dev nD) (t : Fin cfg0.N) (d) : (dats m 0 c).before 0 t d = tileOf m c 0 t :=
  rows_staged m (dats m 0 c) (arrays_found m c 0) (left_rows m c) t d
theorem handed_square (c : Dev nD) (t : Fin cfg0.N) (d) : (dats m 0 c).before 1 t d = tileOf m c 1 t :=
  square_staged m (dats m 0 c) (arrays_found m c 1) (left_square m c) t d

/-! ## The body at a grid point -/

/-- What the body is called with at point `t`, -/
def handed (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem body_at (c : Dev nD) (t : Fin cfg0.N) :
    handed m c t ⊢ wp frame (wpE (defs₀ (F := F)) Variants.none c none) Set.univ (bodyAt0 t) (fun _ => returned m c t) := by
  unfold handed returned bodyAt0
  simp only [handed_rows, handed_square]
  rw [show (dats m 0 c).Φ t.succ = (dats m 0 c).Φ t.castSucc from rfl,
    show (dats m 0 c).owesAt () t.succ = (dats m 0 c).owesAt () t.castSucc from rfl,
    left_rows, left_square, left_product]
  iintro ⟨HΦ, Ho, ⟨%d0, H0⟩, ⟨%d1, H1⟩, ⟨%d2, H2⟩⟩
  iapply (body_runs c Set.univ (grid0.coords t) _ _ _ _ _ _ (tileOf m c 0 t) (tileOf m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_everywhere (c : Dev nD) : BodyObligation (dats (F := F) m 0 c) (defs₀ (F := F)) Variants.none () Set.univ := fun t => by
  rw [bigSep_W0, bigSep_W0]
  exact body_at m c t

/-! ## The run -/

set_option maxHeartbeats 8000000 in
set_option backward.isDefEq.respectTransparency.types false in
/-- From any memory with zero counters every weakly fair execution of the program terminates; at the end each array of the
    pipeline holds what the write-backs computed from the proof data, and every other unscoped buffer what the later
    lines make of it. -/
theorem run_main : θ_run defs (onTc (τ := τ) (main (F := F))) (s₀ m ρ) (Pipeline.FramePost cfgs (dats m) 0 (Pipeline.afterTail₀ cfgs (dats m) 0 (found₀ m) later)) :=
  Pipeline.θ_run_frame_around cfgs (dats m) (0 : Fin 1) launch0 defs₀ Variants.none m ρ main
    (hbody := fun c => (body_everywhere m c).loose) (hshare := fun c => (dats m 0 c).share_full fun _ => rfl)
    (howed := fun _ _ => rfl) (V₀ := found₀ m) (opss := later) (hsub := later_sub) (hfresh := later_fresh) (hkeep := later_keeps)
    (hmain := main_around m Variants.none) (hA := arrays_found m) (hΦ := fun _ _ => rfl)

/-- In a final state of the run the four arguments are as they were launched: the tall matrix is an input array of the
    pipeline, the other three are buffers no array and no later line touches. -/
theorem args_kept (r : PUnit × MemSt nD τ sig (Elt F))
    (h : Pipeline.FramePost cfgs (dats m) 0 (Pipeline.afterTail₀ cfgs (dats m) 0 (found₀ m) later) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).1 0).trans (((dats m 0 c).arrAt_in 0 rfl _).trans ((arrays_found m c 0).trans (found_x m c))),
   ((h c).2 main_arg1 (Pipeline.mem_restRefs_of main_arg1 (by decide) (by decide))).trans
     ((ends_as_found m (dats m) c main_arg1 later_spares_idx (by decide)).trans (found_idx m c)),
   ((h c).2 main_arg2 (Pipeline.mem_restRefs_of main_arg2 (by decide) (by decide))).trans
     ((ends_as_found m (dats m) c main_arg2 later_spares_wgt (by decide)).trans (found_wgt m c)),
   ((h c).2 main_arg3 (Pipeline.mem_restRefs_of main_arg3 (by decide) (by decide))).trans
     ((ends_as_found m (dats m) c main_arg3 later_spares_W (by decide)).trans (found_W m c))⟩

/-- Every weakly fair execution terminates without a fault and leaves the four arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => args_kept m r h c) (run_main m ρ)

end Cert.KernelIdeal.Tiled

end
-- ==== Proof.ProductSpec.lean ====
/-
  The product of a 50000 × 128 matrix with a 128 × 128 matrix over the extended reals, entry by entry: entry (r, q) is the
  sum over the 128 inner coordinates k of x (r, k) · w (k, q).  Nothing is assumed finite: sums and products are the
  extended reals' own, in the one order the sum is written in.
-/
import Idealize.ShloMosaic.PureOps.Ideal.Laws
import Idealize.ShloMosaic.Lib.ValueIdx

noncomputable section

namespace Cert.ProductSpec

open Idealize.ShloMosaic Idealize.ShloMosaic.ValueIdx
open scoped BigOperators

/-- x · w. -/
def product (x : (⟨2, ![50000, 128]⟩ : Shape).Idx → EReal) (w : (⟨2, ![128, 128]⟩ : Shape).Idx → EReal) :
    (⟨2, ![50000, 128]⟩ : Shape).Idx → EReal :=
  fun i => ∑ k : Fin 128, x (ix2 (n0 := 50000) (n1 := 128) ⟨(i 0).val, idx2_lt0 i⟩ k) * w (ix2 (n0 := 128) (n1 := 128) k ⟨(i 1).val, idx2_lt1 i⟩)

/-- Its entry (p, q). -/
theorem product_at (x : (⟨2, ![50000, 128]⟩ : Shape).Idx → EReal) (w : (⟨2, ![128, 128]⟩ : Shape).Idx → EReal) (p : Fin 50000) (q : Fin 128) :
    product x w (ix2 p q) = ∑ k : Fin 128, x (ix2 p k) * w (ix2 k q) := rfl

end Cert.ProductSpec

end
-- ==== Proof.LibDot.lean ====
/-
  A plain matrix product read at an entry.  For dimension numbers that contract the left operand's axis 1 with the right
  operand's axis 0 and have no batch axis, both the matrix unit's product into a zero accumulator and the host's
  dot_general are, at the ideal reading, the textbook sum Σ_i lhs (p, i) · rhs (i, q): the contraction index is its one
  coordinate, and the operand indices at (p, q) and i are (p, i) and (i, q).
-/
import Idealize.ShloMosaic.PureOps.Ideal.Laws
import Idealize.ShloMosaic.Lib.ValueIdx

noncomputable section

namespace Cert.LibDot

open Idealize.ShloMosaic Idealize.ShloMosaic.ValueIdx
open scoped BigOperators

variable {a k b : ℕ} (D : DotDims ⟨2, ![a, k]⟩ ⟨2, ![k, b]⟩ ⟨2, ![a, b]⟩) (hr : D.contr.rank = 1)
  (hs : D.contr.size ⟨0, by omega⟩ = k)
  (hl0 : ∀ j q, (D.lhsIdx j q 0).val = (j 0).val) (hl1 : ∀ j q, (D.lhsIdx j q 1).val = (q ⟨0, by omega⟩).val)
  (hr0 : ∀ j q, (D.rhsIdx j q 0).val = (q ⟨0, by omega⟩).val) (hr1 : ∀ j q, (D.rhsIdx j q 1).val = (j 1).val)

include hr hs hl0 hl1 hr0 hr1

/-- The sum over the contraction index is the sum over its one coordinate, the operands read at (p, i) and (i, q). -/
theorem sum_plain (lhs : (⟨2, ![a, k]⟩ : Shape).Idx → EReal) (rhs : (⟨2, ![k, b]⟩ : Shape).Idx → EReal) (p : Fin a) (q : Fin b) :
    (∑ c : D.contr.Idx, lhs (D.lhsIdx (ix2 p q) c) * rhs (D.rhsIdx (ix2 p q) c)) = ∑ i : Fin k, lhs (ix2 p i) * rhs (ix2 i q) := by
  rw [← Equiv.sum_comp (contrEquiv1 D k hr hs).symm]
  refine Finset.sum_congr rfl fun i _ => ?_
  have hk := contrEquiv1_symm_val D k hr hs i
  have el : D.lhsIdx (ix2 p q) ((contrEquiv1 D k hr hs).symm i) = ix2 p i := funext fun ax => Fin.ext (by
    match ax with
    | ⟨0, _⟩ => exact hl0 _ _
    | ⟨1, _⟩ => exact (hl1 _ _).trans hk)
  have er : D.rhsIdx (ix2 p q) ((contrEquiv1 D k hr hs).symm i) = ix2 i q := funext fun ax => Fin.ext (by
    match ax with
    | ⟨0, _⟩ => exact (hr0 _ _).trans hk
    | ⟨1, _⟩ => exact hr1 _ _)
  rw [el, er]

/-- The matrix unit's product into a zero accumulator, at entry (p, q). -/
theorem matmul_zero_apply {φ₁ φ₂ : FTy} (prec : Option ContractPrecision) (lhs : FVec Ideal ⟨2, ![a, k]⟩ φ₁)
    (rhs : FVec Ideal ⟨2, ![k, b]⟩ φ₂) (p : Fin a) (q : Fin b) :
    FloatOps.matmul D prec lhs rhs (constant ⟨2, ![a, b]⟩ .f32 0x00000000#32) (ix2 p q) = ∑ i : Fin k, lhs (ix2 p i) * rhs (ix2 i q) :=
  (Ideal.matmul_constant_zero_apply D prec lhs rhs (ix2 p q)).trans (sum_plain D hr hs hl0 hl1 hr0 hr1 lhs rhs p q)

/-- The host's dot_general, at entry (p, q). -/
theorem dotGeneral_apply {φ₁ φ₂ : FTy} (prec : Option ContractPrecision) (sched : HostSchedule) (lhs : FVec Ideal ⟨2, ![a, k]⟩ φ₁)
    (rhs : FVec Ideal ⟨2, ![k, b]⟩ φ₂) (p : Fin a) (q : Fin b) :
    FloatOps.dotGeneral D prec sched lhs rhs (ix2 p q) = ∑ i : Fin k, lhs (ix2 p i) * rhs (ix2 i q) :=
  (Ideal.dotGeneral_apply D prec sched lhs rhs (ix2 p q)).trans (sum_plain D hr hs hl0 hl1 hr0 hr1 lhs rhs p q)

end Cert.LibDot

end
-- ==== Proof.IdealProduct.lean ====
/-
  What the product array holds after the idealized kernel's run: the product of the tall matrix and the transposed square
  matrix, entry by entry.

  At the ideal reading the change of float format is the identity and the matrix unit's product into a zero accumulator is
  the plain sum, so the tile the body stores at grid point t has entry (p, q) equal to the sum over k of the row tile's
  (p, k) times the square matrix's (k, q).  The row tile at point t is rows 2000·t … 2000·t + 1999 of the tall matrix, the
  square tile is the whole square matrix, and the output tile at point t is rows 2000·t … 2000·t + 1999 of the product
  array: so what point t writes back is that block of the one array `product x w`.  The 25 blocks of 2000 rows tile the
  50000 rows (row r is in block r / 2000), hence the array ends holding `product x w` everywhere.
-/
import proofs.«177333_j43026982371446_1_alg».proof.Proof.IdealTiledRun
import proofs.«177333_j43026982371446_1_alg».proof.Proof.ProductSpec
import proofs.«177333_j43026982371446_1_alg».proof.Proof.LibDot
import Idealize.ShloMosaic.Lib.Pipeline.Value
import Idealize.ShloMosaic.Lib.StableHlo.Run

set_option maxRecDepth 16384

noncomputable section

namespace Cert.KernelIdeal.Tiled

open Cert.KernelIdeal Cert.KernelIdeal.Gen Cert.ProductSpec
open Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ) (ρ : Dev nD → PrngReg)

local notation "D" => dot_S2000x128_S128x128_S2000x128_1_0_0_1_n_n

/-! ## The matrix unit's dimension numbers: rows × inner, inner × columns -/

theorem lhs_row (j : S2000x128.Idx) (q : (D).contr.Idx) : ((D).lhsIdx j q 0).val = (j 0).val := by
  unfold DotDims.lhsIdx
  rw [dif_neg (show ¬(0 : Fin S2000x128.rank) ∈ (D).lhsBatch by decide), dif_pos (show (0 : Fin S2000x128.rank) ∈ (D).lhsNonContracting by decide)]
  rfl
theorem lhs_inner (j : S2000x128.Idx) (q : (D).contr.Idx) : ((D).lhsIdx j q 1).val = (q ⟨0, by decide⟩).val :=
  (D).lhsIdx_val_of_single rfl j q
theorem rhs_inner (j : S2000x128.Idx) (q : (D).contr.Idx) : ((D).rhsIdx j q 0).val = (q ⟨0, by decide⟩).val :=
  (D).rhsIdx_val_of_single rfl j q
theorem rhs_col (j : S2000x128.Idx) (q : (D).contr.Idx) : ((D).rhsIdx j q 1).val = (j 1).val := by
  unfold DotDims.rhsIdx
  rw [dif_neg (show ¬(1 : Fin S128x128.rank) ∈ (D).rhsBatch by decide), dif_pos (show (1 : Fin S128x128.rank) ∈ (D).rhsNonContracting by decide)]
  rfl

/-- The tile the body stores, at entry (p, q): the sum over the inner coordinate of the products. -/
theorem stored_at (x0 : Vec Ideal S2000x128 .f32) (x1 : Vec Ideal S128x128 .f32) (p : Fin 2000) (q : Fin 128) :
    k0_pay1 (F := Ideal) x0 x1 (ix2 p q) = ∑ k : Fin 128, x0 (ix2 p k) * x1 (ix2 k q) := by
  unfold k0_pay1
  rw [shapeCast_self]
  exact Cert.LibDot.matmul_zero_apply (D) rfl rfl lhs_row lhs_inner rhs_inner rhs_col none x0 x1 p q

/-! ## The tiles as parts of the arrays -/

theorem hz : (![0, 0] : Fin 2 → Nat) = fun _ => 0 := funext fun a => by fin_cases a <;> rfl

/-- The index maps over the grid: the row windows' block is the point's number, every other block index is zero. -/
theorem blocks_at : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The row tile at point t, entry y, is the tall matrix at row 2000·t + y₀, column y₁. -/
theorem rows_at (c : Dev nD) (t : Fin cfg0.N) (y : S2000x128.Idx) (k : S50000x128.Idx)
    (h0 : (k 0).val = 2000 * t.val + (y 0).val) (h1 : (k 1).val = (y 1).val) :
    (tileOf m c 0 t : Vec Ideal S2000x128 .f32) y = (found m c main_arg0 : S50000x128.Idx → EReal) k := by
  obtain ⟨e0, e1, -⟩ := blocks_at t
  unfold tileOf
  rw [View.read_apply]
  show found m c main_arg0 _ = found m c main_arg0 _
  congr 1
  funext a
  apply Fin.ext
  match a with
  | ⟨0, _⟩ => show win0_0.index t 0 * 2000 + 1 * (y 0).val = (k 0).val; rw [e0, h0]; omega
  | ⟨1, _⟩ => show win0_0.index t 1 * 128 + 1 * (y 1).val = (k 1).val; rw [e1, h1]; omega

/-- The square tile at any point is the whole transposed square matrix. -/
theorem square_at (c : Dev nD) (t : Fin cfg0.N) (y : S128x128.Idx) :
    (tileOf m c 1 t : Vec Ideal S128x128 .f32) y = (found m c main_v0 : S128x128.Idx → EReal) y := by
  obtain ⟨-, -, e0, e1, -⟩ := blocks_at t
  unfold tileOf
  rw [View.read_apply]
  show found m c main_v0 _ = found m c main_v0 _
  congr 1
  funext a
  apply Fin.ext
  match a with
  | ⟨0, _⟩ => show win0_1.index t 0 * 128 + 1 * (y 0).val = (y 0).val; rw [e0]; omega
  | ⟨1, _⟩ => show win0_1.index t 1 * 128 + 1 * (y 1).val = (y 1).val; rw [e1]; omega

/-- The product array the kernel computes: the tall matrix times the transposed square one, as the kernel finds them. -/
abbrev whole (c : Dev nD) : S50000x128.Idx → EReal :=
  product (found m c main_arg0 : S50000x128.Idx → EReal) (found m c main_v0 : S128x128.Idx → EReal)

/-- What point t writes back is block t of `whole`. -/
theorem written_back (c : Dev nD) (t : Fin cfg0.N) :
    (dats m 0 c).flushed 2 t = ((cfg0.win 2).blk t).view.read (Elt Ideal) (whole m c) := by
  have hN : cfg0.N = 25 := N_0
  have ht : t.val < 25 := hN ▸ t.isLt
  obtain ⟨-, -, -, -, e0, e1⟩ := blocks_at t
  show (cfg0.win 2).cut (grid0.coords t) ((dats m 0 c).after 2 t) = _
  rw [left_product]
  unfold tile
  rw [View.canon_unit_zero hz]
  simp only [View.ld_unit_zero (S := S2000x128) hz, View.ld_unit_zero (S := S128x128) hz]
  funext j
  obtain ⟨p, q, rfl⟩ : ∃ (p : Fin 2000) (q : Fin 128), j = ix2 p q := ⟨j 0, j 1, eq_ix2 j⟩
  refine (stored_at _ _ p q).trans ?_
  rw [View.read_apply]
  have hr : t.val * 2000 + p.val < 50000 := by have := p.isLt; omega
  have hemb : ((cfg0.win 2).blk t).view.emb (ix2 p q) = (ix2 (⟨t.val * 2000 + p.val, hr⟩ : Fin 50000) q : S50000x128.Idx) := by
    funext a
    apply Fin.ext
    match a with
    | ⟨0, _⟩ => show win0_2.index t 0 * 2000 + 1 * p.val = t.val * 2000 + p.val; rw [e0]; omega
    | ⟨1, _⟩ => show win0_2.index t 1 * 128 + 1 * q.val = q.val; rw [e1]; omega
  rw [hemb]
  show _ = product _ _ (ix2 (⟨t.val * 2000 + p.val, hr⟩ : Fin 50000) q)
  rw [product_at]
  refine Finset.sum_congr rfl fun k _ => ?_
  rw [rows_at m c t (ix2 p k) (ix2 (⟨t.val * 2000 + p.val, hr⟩ : Fin 50000) k) (by show t.val * 2000 + p.val = 2000 * t.val + p.val; omega) rfl,
    square_at m c t (ix2 k q)]

/-- An entry of the product array is in point t's block iff its row is among the block's 2000 rows. -/
theorem in_block (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v1).slice (win0_2.rect t)).set ↔ _
  rw [View.set_slice_whole, Rect.mem_set_unit]
  exact Iff.rfl

/-- Row r lies in block r / 2000. -/
theorem blocks_cover (i : S50000x128.Idx) : ∃ t : Fin cfg0.N, (cfg0.win 2).flush t = true ∧ i ∈ ((cfg0.win 2).blk t).view.set := by
  have hN : cfg0.N = 25 := N_0
  have hi0 : (i 0).val < 50000 := (i 0).isLt
  have hi1 : (i 1).val < 128 := (i 1).isLt
  let t : Fin cfg0.N := ⟨(i 0).val / 2000, by rw [hN]; omega⟩
  obtain ⟨-, -, -, -, e0, e1⟩ := blocks_at t
  refine ⟨t, flush0_2 t, ?_⟩
  rw [in_block]
  intro a
  match a with
  | ⟨0, _⟩ => show win0_2.index t 0 * 2000 ≤ (i 0).val ∧ (i 0).val < win0_2.index t 0 * 2000 + 2000
              rw [e0]; show (i 0).val / 2000 * 2000 ≤ (i 0).val ∧ (i 0).val < (i 0).val / 2000 * 2000 + 2000; omega
  | ⟨1, _⟩ => show win0_2.index t 1 * 128 ≤ (i 1).val ∧ (i 1).val < win0_2.index t 1 * 128 + 128
              rw [e1]; omega

/-- The product array after the run. -/
theorem product_array (c : Dev nD) : (dats m 0 c).arrAt 2 cfg0.N = whole m c :=
  (dats m 0 c).arrAt_eq_of_cover 2 (whole m c) (fun t _ => written_back m c t) blocks_cover

/-- The transposed square matrix as the kernel finds it: the host's transpose of the argument. -/
theorem found_Wt (c : Dev nD) : (found m c main_v0 : S128x128.Idx → EReal)
    = transpose S128x128 [1, 0] (m ((c : Thread nD τ).loc main_arg3)) transposes_S128x128_S128x128_1_0 := by
  dsimp only [found, found₀]
  simp only [hostOps0, List.flatten_cons, List.flatten_nil, List.append_nil]
  after_results

end Cert.KernelIdeal.Tiled

end
-- ==== Proof.SameTail.lean ====
/-
  The host lines after the product are the same in the two programs.

  They are read here as a few stages: the edge list's two rows with the self-loops appended (`sources`, `targets`), the
  weights with ones appended (`weights`), the nodes' degrees and their inverse square roots (`degree`, `invSqrtDegree`), the
  edges' coefficients (`coefficient`) and one hop of propagation (`hop`), applied twice (`propagated`).  The kernel
  program's 73 later lines, run from ANY contents of its buffers, leave in the result buffer `propagated` of what the
  product buffer, the edge list and the edge weights held: stretch by stretch, each stretch read off the fold of its own
  lines.  The reference's composed result is `propagated` of its host product and its two arguments.  The kernel's product
  buffer holds `product x Wᵀ`, which is the reference's host product of the same arrays; so the two results are one.
-/
import proofs.«177333_j43026982371446_1_alg».proof.Proof.IdealProduct
import proofs.«177333_j43026982371446_1_alg».proof.Proof.Gen.ReferenceIdeal.Read
import Idealize.ShloMosaic.Lib.StableHlo.Run

set_option maxRecDepth 16384

noncomputable section

namespace Cert.SameTail

open Idealize.ShloMosaic Idealize.ShloMosaic.TcCoe Idealize.ShloMosaic.ValueIdx Idealize.SL.Sem Idealize.ShloMosaic.StableHlo
open Cert.ProductSpec

/-! ## The stages of the propagation, as functions -/

section Stages

open Cert.ReferenceIdeal Cert.ReferenceIdeal.Gen

variable {F : FTy → Type} [FloatOps F]

/-- Row `k` of the edge list (0: sources, 1: targets) flattened, with the 50000 self-loops 0, 1, 2, … appended. -/
def sources (ei : IVec S2x600000 32) : IVec S650000 32 :=
  concatenate S650000 0 [⟨S600000, shapeCast _ (extractStridedSlice S1x600000 ![0, 0] ei slices_S2x600000_S1x600000_0_0) shapeCasts_S1x600000_S600000⟩,
    ⟨S50000, iotaInDim S50000 32 0⟩] concatenates_S600000_S50000_S650000_d0
def targets (ei : IVec S2x600000 32) : IVec S650000 32 :=
  concatenate S650000 0 [⟨S600000, shapeCast _ (extractStridedSlice S1x600000 ![1, 0] ei slices_S2x600000_S1x600000_1_0) shapeCasts_S1x600000_S600000⟩,
    ⟨S50000, iotaInDim S50000 32 0⟩] concatenates_S600000_S50000_S650000_d0

/-- The edge weights with a weight 1 appended for every self-loop. -/
def weights (ew : FVec F S600000 .f32) : FVec F S650000 .f32 :=
  concatenate S650000 0 [⟨S600000, ew⟩, ⟨S50000, broadcastInDim S50000 ![] bcast_S_S50000 (constant S_ .f32 0x3F800000#32)⟩]
    concatenates_S600000_S50000_S650000_d0

/-- Node numbers as a column of start indices, a negative one counted from the end (n + 50000). -/
def wrapped (ix : IVec S650000 32) : IVec S650000x1 32 :=
  broadcastInDim S650000x1 ![0] bcast_S650000_S650000x1_0
    (select (cmpi .slt ix (broadcastInDim S650000 ![] bcast_S_S650000 (constantI S_ 32 0#32)))
      (addi ix (broadcastInDim S650000 ![] bcast_S_S650000 (constantI S_ 32 50000#32))) ix)

/-- A node's degree: the sum of the weights of the edges that end at it. -/
def degree (tgt : IVec S650000 32) (w : FVec F S650000 .f32) : FVec F S50000 .f32 :=
  Host.scatterAdd scatter_S50000_S650000x1_S650000_n_0_0_1 (broadcastInDim S50000 ![] bcast_S_S50000 (constant S_ .f32 0x00000000#32))
    (broadcastInDim S650000x1 ![0] bcast_S650000_S650000x1_0 tgt) w

/-- The degree's inverse square root where the degree is positive, zero elsewhere. -/
def invSqrtDegree (deg : FVec F S50000 .f32) : FVec F S50000 .f32 :=
  select (cmpf .ogt deg (broadcastInDim S50000 ![] bcast_S_S50000 (constant S_ .f32 0x00000000#32))) (Host.rsqrt deg)
    (broadcastInDim S50000 ![] bcast_S_S50000 (constant S_ .f32 0x00000000#32))

/-- An edge's coefficient: d(source) · weight · d(target). -/
def coefficient (src tgt : IVec S650000 32) (w : FVec F S650000 .f32) (d : FVec F S50000 .f32) : FVec F S650000 .f32 :=
  mulf (mulf (Host.gather gather_S50000_S650000x1_S650000_n_0_n_n_0_1_1 d (wrapped src)) w)
    (Host.gather gather_S50000_S650000x1_S650000_n_0_n_n_0_1_1 d (wrapped tgt))

/-- One hop: every edge carries its coefficient times its source's row to its target, where the rows add up.  The coefficients
    come as a column. -/
def hop (h : FVec F S50000x128 .f32) (src tgt : IVec S650000 32) (coefCol : FVec F S650000x1 .f32) : FVec F S50000x128 .f32 :=
  Host.scatterAdd scatter_S50000x128_S650000x1_S650000x128_1_0_0_1
    (broadcastInDim S50000x128 ![] bcast_S_S50000x128 (constant S_ .f32 0x00000000#32))
    (broadcastInDim S650000x1 ![0] bcast_S650000_S650000x1_0 tgt)
    (mulf (broadcastInDim S650000x128 ![0, 1] bcast_S650000x1_S650000x128_0_1 coefCol)
      (Host.gather gather_S50000x128_S650000x1_S650000x128_1_0_n_n_0_1_1128 h (wrapped src)))

/-- A vector as a column. -/
def column (v : FVec F S650000 .f32) : FVec F S650000x1 .f32 := broadcastInDim S650000x1 ![0] bcast_S650000_S650000x1_0 v

end Stages

section Whole

open Cert.ReferenceIdeal Cert.ReferenceIdeal.Gen

variable {F : FTy → Type} [FloatOps F]

/-- The coefficients of all 650000 edges, from the edge list and the edge weights. -/
def coefficients (ei : IVec S2x600000 32) (ew : FVec F S600000 .f32) : FVec F S650000 .f32 :=
  coefficient (sources ei) (targets ei) (weights ew) (invSqrtDegree (degree (targets ei) (weights ew)))

/-- Two hops from `h`. -/
def propagated (h : FVec F S50000x128 .f32) (ei : IVec S2x600000 32) (ew : FVec F S600000 .f32) : FVec F S50000x128 .f32 :=
  hop (hop h (sources ei) (targets ei) (column (coefficients ei ew))) (sources ei) (targets ei) (column (coefficients ei ew))

end Whole

/-! ## The reference -/

/-- The reference's host product is `product`: its dimension numbers contract the left operand's columns with the right
    operand's rows, so entry (p, q) is the sum over k of lhs (p, k) · rhs (k, q). -/
theorem reference_product (x : FVec Ideal Cert.ReferenceIdeal.S50000x128 .f32) (w : FVec Ideal Cert.ReferenceIdeal.S128x128 .f32) :
    Host.dotGeneral (F := Ideal) (φ₁ := .f32) (φ₂ := .f32) Cert.ReferenceIdeal.dot_S50000x128_S128x128_S50000x128_1_0_0_1_n_n none x w = product x w := by
  funext i
  obtain ⟨p, q, rfl⟩ : ∃ (p : Fin 50000) (q : Fin 128), i = ix2 p q := ⟨i 0, i 1, eq_ix2 i⟩
  rw [product_at]
  exact Cert.LibDot.dotGeneral_apply Cert.ReferenceIdeal.dot_S50000x128_S128x128_S50000x128_1_0_0_1_n_n rfl rfl
    Cert.ReferenceIdeal.Read.lhs_main_v1_0 Cert.ReferenceIdeal.Read.lhs_main_v1_1 Cert.ReferenceIdeal.Read.rhs_main_v1_0
    Cert.ReferenceIdeal.Read.rhs_main_v1_1 none .single x w p q

set_option maxHeartbeats 4000000 in
/-- The reference's composed result is two hops from its host product. -/
theorem reference_result (m' : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v60 m' c
      = propagated (F := Ideal)
          (Host.dotGeneral (F := Ideal) (φ₁ := .f32) (φ₂ := .f32) Cert.ReferenceIdeal.dot_S50000x128_S128x128_S50000x128_1_0_0_1_n_n none
            (m' ((c.tc : Thread Cert.ReferenceIdeal.nD Cert.ReferenceIdeal.τ).loc Cert.ReferenceIdeal.main_arg0))
            (transpose Cert.ReferenceIdeal.S128x128 [1, 0] (m' ((c.tc : Thread Cert.ReferenceIdeal.nD Cert.ReferenceIdeal.τ).loc Cert.ReferenceIdeal.main_arg3)) Cert.ReferenceIdeal.Gen.transposes_S128x128_S128x128_1_0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2)) := by
  unfold Cert.ReferenceIdeal.Value.res_main_v60 propagated coefficients hop column coefficient invSqrtDegree degree wrapped weights targets sources
  rfl

/-! ## The kernel program's later lines, stretch by stretch, from any contents `V` of its buffers -/

local notation "KV" => Valuation Cert.KernelIdeal.τ Cert.KernelIdeal.sig (Elt Ideal)

set_option maxHeartbeats 4000000 in
/-- The first stretch leaves the sources -/
theorem first_sources (V : KV) :
    (StableHlo.after (Cert.KernelIdeal.Gen.hostOps1 (F := Ideal)) V (Proc.devRef .tc Cert.KernelIdeal.main_v5) : IVec Cert.ReferenceIdeal.S650000 32)
      = sources (V (Proc.devRef .tc Cert.KernelIdeal.main_arg1)) := by
  simp only [Cert.KernelIdeal.Gen.hostOps1]
  after_results_simp <;> rfl

set_option maxHeartbeats 4000000 in
/-- the targets -/
theorem first_targets (V : KV) :
    (StableHlo.after (Cert.KernelIdeal.Gen.hostOps1 (F := Ideal)) V (Proc.devRef .tc Cert.KernelIdeal.main_v8) : IVec Cert.ReferenceIdeal.S650000 32)
      = targets (V (Proc.devRef .tc Cert.KernelIdeal.main_arg1)) := by
  simp only [Cert.KernelIdeal.Gen.hostOps1]
  after_results_simp <;> rfl

set_option maxHeartbeats 4000000 in
/-- the weights -/
theorem first_weights (V : KV) :
    (StableHlo.after (Cert.KernelIdeal.Gen.hostOps1 (F := Ideal)) V (Proc.devRef .tc Cert.KernelIdeal.main_v10) : FVec Ideal Cert.ReferenceIdeal.S650000 .f32)
      = weights (F := Ideal) (V (Proc.devRef .tc Cert.KernelIdeal.main_arg2)) := by
  simp only [Cert.KernelIdeal.Gen.hostOps1]
  after_results_simp <;> rfl

set_option maxHeartbeats 4000000 in
/-- where the degree is positive -/
theorem first_positive (V : KV) :
    (StableHlo.after (Cert.KernelIdeal.Gen.hostOps1 (F := Ideal)) V (Proc.devRef .tc Cert.KernelIdeal.main_v15) : IVec Cert.ReferenceIdeal.S50000 1)
      = cmpf .ogt (degree (F := Ideal) (targets (V (Proc.devRef .tc Cert.KernelIdeal.main_arg1))) (weights (V (Proc.devRef .tc Cert.KernelIdeal.main_arg2)))) (broadcastInDim Cert.ReferenceIdeal.S50000 ![] Cert.ReferenceIdeal.Gen.bcast_S_S50000 (constant (F := Ideal) Cert.ReferenceIdeal.S_ .f32 0x00000000#32)) := by
  simp only [Cert.KernelIdeal.Gen.hostOps1]
  after_results_simp <;> rfl

set_option maxHeartbeats 4000000 in
/-- the degree's inverse square root -/
theorem first_rsqrt (V : KV) :
    (StableHlo.after (Cert.KernelIdeal.Gen.hostOps1 (F := Ideal)) V (Proc.devRef .tc Cert.KernelIdeal.main_v16) : FVec Ideal Cert.ReferenceIdeal.S50000 .f32)
      = Host.rsqrt (degree (F := Ideal) (targets (V (Proc.devRef .tc Cert.KernelIdeal.main_arg1))) (weights (V (Proc.devRef .tc Cert.KernelIdeal.main_arg2)))) := by
  simp only [Cert.KernelIdeal.Gen.hostOps1]
  after_results_simp <;> rfl

set_option maxHeartbeats 4000000 in
/-- zeros -/
theorem first_zero (V : KV) :
    (StableHlo.after (Cert.KernelIdeal.Gen.hostOps1 (F := Ideal)) V (Proc.devRef .tc Cert.KernelIdeal.main_v17) : FVec Ideal Cert.ReferenceIdeal.S50000 .f32)
      = broadcastInDim Cert.ReferenceIdeal.S50000 ![] Cert.ReferenceIdeal.Gen.bcast_S_S50000 (constant (F := Ideal) Cert.ReferenceIdeal.S_ .f32 0x00000000#32) := by
  simp only [Cert.KernelIdeal.Gen.hostOps1]
  after_results_simp <;> rfl

set_option maxHeartbeats 4000000 in
/-- and the product as it was. -/
theorem first_product (V : KV) :
    (StableHlo.after (Cert.KernelIdeal.Gen.hostOps1 (F := Ideal)) V (Proc.devRef .tc Cert.KernelIdeal.main_v1) : FVec Ideal Cert.ReferenceIdeal.S50000x128 .f32)
      = (V (Proc.devRef .tc Cert.KernelIdeal.main_v1)) := by
  simp only [Cert.KernelIdeal.Gen.hostOps1]
  after_results_simp <;> rfl

set_option maxHeartbeats 4000000 in
/-- The one line of the second stretch chooses between two vectors -/
theorem choice_made (V : KV) :
    (StableHlo.after (Cert.KernelIdeal.Gen.hostOps1_1 (F := Ideal)) V (Proc.devRef .tc Cert.KernelIdeal.main_v18) : FVec Ideal Cert.ReferenceIdeal.S50000 .f32)
      = select ((V (Proc.devRef .tc Cert.KernelIdeal.main_v15)) : IVec Cert.ReferenceIdeal.S50000 1) ((V (Proc.devRef .tc Cert.KernelIdeal.main_v16)) : FVec Ideal Cert.ReferenceIdeal.S50000 .f32) ((V (Proc.devRef .tc Cert.KernelIdeal.main_v17)) : FVec Ideal Cert.ReferenceIdeal.S50000 .f32) := by
  simp only [Cert.KernelIdeal.Gen.hostOps1_1]
  after_results_simp <;> rfl

set_option maxHeartbeats 4000000 in
/-- and keeps the product, -/
theorem choice_product (V : KV) :
    (StableHlo.after (Cert.KernelIdeal.Gen.hostOps1_1 (F := Ideal)) V (Proc.devRef .tc Cert.KernelIdeal.main_v1) : FVec Ideal Cert.ReferenceIdeal.S50000x128 .f32)
      = (V (Proc.devRef .tc Cert.KernelIdeal.main_v1)) := by
  simp only [Cert.KernelIdeal.Gen.hostOps1_1]
  after_results_simp <;> rfl

set_option maxHeartbeats 4000000 in
/-- the sources, -/
theorem choice_sources (V : KV) :
    (StableHlo.after (Cert.KernelIdeal.Gen.hostOps1_1 (F := Ideal)) V (Proc.devRef .tc Cert.KernelIdeal.main_v5) : IVec Cert.ReferenceIdeal.S650000 32)
      = (V (Proc.devRef .tc Cert.KernelIdeal.main_v5)) := by
  simp only [Cert.KernelIdeal.Gen.hostOps1_1]
  after_results_simp <;> rfl

set_option maxHeartbeats 4000000 in
/-- the targets -/
theorem choice_targets (V : KV) :
    (StableHlo.after (Cert.KernelIdeal.Gen.hostOps1_1 (F := Ideal)) V (Proc.devRef .tc Cert.KernelIdeal.main_v8) : IVec Cert.ReferenceIdeal.S650000 32)
      = (V (Proc.devRef .tc Cert.KernelIdeal.main_v8)) := by
  simp only [Cert.KernelIdeal.Gen.hostOps1_1]
  after_results_simp <;> rfl

set_option maxHeartbeats 4000000 in
/-- and the weights. -/
theorem choice_weights (V : KV) :
    (StableHlo.after (Cert.KernelIdeal.Gen.hostOps1_1 (F := Ideal)) V (Proc.devRef .tc Cert.KernelIdeal.main_v10) : FVec Ideal Cert.ReferenceIdeal.S650000 .f32)
      = (V (Proc.devRef .tc Cert.KernelIdeal.main_v10)) := by
  simp only [Cert.KernelIdeal.Gen.hostOps1_1]
  after_results_simp <;> rfl

set_option maxHeartbeats 4000000 in
/-- The third stretch computes the coefficients and makes the first hop; -/
theorem third_hop (V : KV) :
    (StableHlo.after (Cert.KernelIdeal.Gen.main_part0_ops3 (F := Ideal)) V (Proc.devRef .tc Cert.KernelIdeal.main_v47) : FVec Ideal Cert.ReferenceIdeal.S50000x128 .f32)
      = hop (F := Ideal) (V (Proc.devRef .tc Cert.KernelIdeal.main_v1)) (V (Proc.devRef .tc Cert.KernelIdeal.main_v5)) (V (Proc.devRef .tc Cert.KernelIdeal.main_v8)) (column (coefficient (F := Ideal) (V (Proc.devRef .tc Cert.KernelIdeal.main_v5)) (V (Proc.devRef .tc Cert.KernelIdeal.main_v8)) (V (Proc.devRef .tc Cert.KernelIdeal.main_v10)) (V (Proc.devRef .tc Cert.KernelIdeal.main_v18)))) := by
  simp only [Cert.KernelIdeal.Gen.main_part0_ops3]
  after_results_simp <;> rfl

set_option maxHeartbeats 4000000 in
/-- it leaves the coefficients as a column -/
theorem third_column (V : KV) :
    (StableHlo.after (Cert.KernelIdeal.Gen.main_part0_ops3 (F := Ideal)) V (Proc.devRef .tc Cert.KernelIdeal.main_v48) : FVec Ideal Cert.ReferenceIdeal.S650000x1 .f32)
      = column (coefficient (F := Ideal) (V (Proc.devRef .tc Cert.KernelIdeal.main_v5)) (V (Proc.devRef .tc Cert.KernelIdeal.main_v8)) (V (Proc.devRef .tc Cert.KernelIdeal.main_v10)) (V (Proc.devRef .tc Cert.KernelIdeal.main_v18))) := by
  simp only [Cert.KernelIdeal.Gen.main_part0_ops3]
  after_results_simp <;> rfl

set_option maxHeartbeats 4000000 in
/-- and keeps the sources -/
theorem third_sources (V : KV) :
    (StableHlo.after (Cert.KernelIdeal.Gen.main_part0_ops3 (F := Ideal)) V (Proc.devRef .tc Cert.KernelIdeal.main_v5) : IVec Cert.ReferenceIdeal.S650000 32)
      = (V (Proc.devRef .tc Cert.KernelIdeal.main_v5)) := by
  simp only [Cert.KernelIdeal.Gen.main_part0_ops3]
  after_results_simp <;> rfl

set_option maxHeartbeats 4000000 in
/-- and the targets. -/
theorem third_targets (V : KV) :
    (StableHlo.after (Cert.KernelIdeal.Gen.main_part0_ops3 (F := Ideal)) V (Proc.devRef .tc Cert.KernelIdeal.main_v8) : IVec Cert.ReferenceIdeal.S650000 32)
      = (V (Proc.devRef .tc Cert.KernelIdeal.main_v8)) := by
  simp only [Cert.KernelIdeal.Gen.main_part0_ops3]
  after_results_simp <;> rfl

set_option maxHeartbeats 4000000 in
/-- The last stretch makes the second hop. -/
theorem second_hop (V : KV) :
    (StableHlo.after (Cert.KernelIdeal.Gen.main_part1_ops0 (F := Ideal)) V (Proc.devRef .tc Cert.KernelIdeal.main_v60) : FVec Ideal Cert.ReferenceIdeal.S50000x128 .f32)
      = hop (F := Ideal) (V (Proc.devRef .tc Cert.KernelIdeal.main_v47)) (V (Proc.devRef .tc Cert.KernelIdeal.main_v5)) (V (Proc.devRef .tc Cert.KernelIdeal.main_v8)) (V (Proc.devRef .tc Cert.KernelIdeal.main_v48)) := by
  simp only [Cert.KernelIdeal.Gen.main_part1_ops0]
  after_results_simp <;> rfl

/-- All 73 lines: two hops from whatever the product buffer held. -/
theorem later_lines (W : KV) :
    (StableHlo.after (List.flatten (Cert.KernelIdeal.Tiled.later (F := Ideal))) W (Proc.devRef .tc Cert.KernelIdeal.main_v60) : FVec Ideal Cert.ReferenceIdeal.S50000x128 .f32)
      = propagated (F := Ideal) (W (Proc.devRef .tc Cert.KernelIdeal.main_v1)) (W (Proc.devRef .tc Cert.KernelIdeal.main_arg1)) (W (Proc.devRef .tc Cert.KernelIdeal.main_arg2)) := by
  have hcut : List.flatten (Cert.KernelIdeal.Tiled.later (F := Ideal))
      = Cert.KernelIdeal.Gen.hostOps1 ++ (Cert.KernelIdeal.Gen.hostOps1_1 ++ (Cert.KernelIdeal.Gen.main_part0_ops3 ++ Cert.KernelIdeal.Gen.main_part1_ops0)) := rfl
  rw [hcut, StableHlo.after_append, StableHlo.after_append, StableHlo.after_append]
  rw [second_hop, third_hop, third_column, third_sources, third_targets]
  rw [choice_made, choice_product, choice_sources, choice_targets, choice_weights]
  rw [first_sources, first_targets, first_weights, first_positive, first_rsqrt, first_zero, first_product]
  rfl

/-! ## The kernel's result -/

/-- In a final state of the idealized kernel program's run, from a memory that agrees with the reference's on the four
    arguments, the result buffer holds the reference's composed result. -/
theorem kernel_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (r : PUnit × MemSt Cert.KernelIdeal.nD Cert.KernelIdeal.τ Cert.KernelIdeal.sig (Elt Ideal))
    (h : Pipeline.FramePost Cert.KernelIdeal.cfgs (Cert.KernelIdeal.Tiled.dats m) 0
      (Pipeline.afterTail₀ Cert.KernelIdeal.cfgs (Cert.KernelIdeal.Tiled.dats m) 0 (Cert.KernelIdeal.Tiled.found₀ m) Cert.KernelIdeal.Tiled.later) r) (c : Dev Cert.KernelIdeal.nD) :
    r.2.mem ((c.tc : Thread Cert.KernelIdeal.nD Cert.KernelIdeal.τ).loc Cert.KernelIdeal.main_v60) = Cert.ReferenceIdeal.Value.res_main_v60 m' c := by
  refine ((h c).2 Cert.KernelIdeal.main_v60 (Pipeline.mem_restRefs_of Cert.KernelIdeal.main_v60 (by decide) (by decide))).trans ?_
  unfold Pipeline.afterTail₀
  refine (later_lines _).trans ?_
  rw [reference_result, reference_product]
  have hprod : (Pipeline.withArrays (Cert.KernelIdeal.cfgs 0).spec c (Cert.KernelIdeal.Tiled.found₀ m c) (fun w => (Cert.KernelIdeal.Tiled.dats m 0 c).arrAt w (Cert.KernelIdeal.cfgs 0).N)
      (Proc.devRef .tc Cert.KernelIdeal.main_v1) : FVec Ideal Cert.ReferenceIdeal.S50000x128 .f32)
      = product (m' ((c.tc : Thread Cert.ReferenceIdeal.nD Cert.ReferenceIdeal.τ).loc Cert.ReferenceIdeal.main_arg0))
          (transpose Cert.ReferenceIdeal.S128x128 [1, 0] (m' ((c.tc : Thread Cert.ReferenceIdeal.nD Cert.ReferenceIdeal.τ).loc Cert.ReferenceIdeal.main_arg3)) Cert.ReferenceIdeal.Gen.transposes_S128x128_S128x128_1_0) := by
    refine (Pipeline.withArrays_arr Cert.KernelIdeal.spec0 Cert.KernelIdeal.Gen.launch0.win.arr_inj c _ _ 2).trans ?_
    refine (Cert.KernelIdeal.Tiled.product_array m c).trans ?_
    show product (Cert.KernelIdeal.Tiled.found m c Cert.KernelIdeal.main_arg0) (Cert.KernelIdeal.Tiled.found m c Cert.KernelIdeal.main_v0) = _
    rw [Cert.KernelIdeal.Tiled.found_x, Cert.KernelIdeal.Tiled.found_Wt, (hagree c).1, (hagree c).2.2.2]
  have hidx : Pipeline.withArrays (Cert.KernelIdeal.cfgs 0).spec c (Cert.KernelIdeal.Tiled.found₀ m c) (fun w => (Cert.KernelIdeal.Tiled.dats m 0 c).arrAt w (Cert.KernelIdeal.cfgs 0).N)
      (Proc.devRef .tc Cert.KernelIdeal.main_arg1) = m' ((c.tc : Thread Cert.ReferenceIdeal.nD Cert.ReferenceIdeal.τ).loc Cert.ReferenceIdeal.main_arg1) :=
    (Pipeline.withArrays_of_ne Cert.KernelIdeal.spec0 c _ _ Cert.KernelIdeal.main_arg1 (by decide)).trans ((Cert.KernelIdeal.Tiled.found_idx m c).trans (hagree c).2.1.symm)
  have hwgt : Pipeline.withArrays (Cert.KernelIdeal.cfgs 0).spec c (Cert.KernelIdeal.Tiled.found₀ m c) (fun w => (Cert.KernelIdeal.Tiled.dats m 0 c).arrAt w (Cert.KernelIdeal.cfgs 0).N)
      (Proc.devRef .tc Cert.KernelIdeal.main_arg2) = m' ((c.tc : Thread Cert.ReferenceIdeal.nD Cert.ReferenceIdeal.τ).loc Cert.ReferenceIdeal.main_arg2) :=
    (Pipeline.withArrays_of_ne Cert.KernelIdeal.spec0 c _ _ Cert.KernelIdeal.main_arg2 (by decide)).trans ((Cert.KernelIdeal.Tiled.found_wgt m c).trans (hagree c).2.2.1.symm)
  rw [hprod, hidx, hwgt]

end Cert.SameTail

end
-- ==== Proof.lean ====
/-
  A row-tiled matrix product followed by two hops of normalised graph propagation, against the same computation with the
  product done in one piece on the host.

  Both programs transpose the 128 × 128 weight matrix on the host, multiply the 50000 × 128 feature matrix by it, and then
  run the same 73 host lines (self-loops appended to the edge list, degrees by a scatter-add of the edge weights, inverse
  square roots where the degree is positive, per-edge normalisation, and twice a gather of rows, a scaling and a scatter-add).
  The kernel computes the product 2000 rows at a time on the matrix unit, from operands rounded to a shorter float format;
  at the ideal reading the rounding is the identity and each tile's entries are the plain sums over the 128 inner
  coordinates, so the 25 tiles written back are the 25 row blocks of the one product the reference computes.  The later
  lines are then the same function applied to the same three arrays.  No finiteness is used: only that the two sides are
  the same sums in the same order, fed to the same lines.

  Frames: the kernel programs run to the end leaving their arguments as launched because the pipeline's write-backs touch
  only the product buffer and the host lines write only buffers of their own; the reference is a straight line of host
  operations.  The ideal pass rewrote nothing, so there is nothing to preserve.
-/
import proofs.«177333_j43026982371446_1_alg».proof.Defs
import proofs.«177333_j43026982371446_1_alg».proof.Proof.Gen.Kernel
import proofs.«177333_j43026982371446_1_alg».proof.Proof.Gen.KernelIdeal
import proofs.«177333_j43026982371446_1_alg».proof.Proof.Gen.ReferenceIdeal
import proofs.«177333_j43026982371446_1_alg».proof.Proof.Gen.ReferenceIdeal.Run
import proofs.«177333_j43026982371446_1_alg».proof.Proof.Gen.ReferenceIdeal.Read
import proofs.«177333_j43026982371446_1_alg».proof.Proof.Gen.Pre_finite_inputs
import proofs.«177333_j43026982371446_1_alg».proof.Proof.WordTiledRun
import proofs.«177333_j43026982371446_1_alg».proof.Proof.IdealTiledRun
import proofs.«177333_j43026982371446_1_alg».proof.Proof.IdealProduct
import proofs.«177333_j43026982371446_1_alg».proof.Proof.SameTail
import Idealize.ShloMosaic.Adequacy
import Idealize.ShloMosaic.Init

noncomputable section

namespace Cert.Proof

open Idealize.ShloMosaic Idealize.SL.Sem

/-- The word-level kernel program terminates, faults nowhere and keeps its arguments. -/
theorem frame_word : Cert.frame_Kernel := fun m ρ _ => Cert.Kernel.Tiled.frame m ρ

/-- So does the idealized one. -/
theorem frame_ideal : Cert.frame_KernelIdeal := fun m ρ _ => Cert.KernelIdeal.Tiled.frame m ρ

/-- The reference is a straight line of host operations: it runs, and its arguments are read only. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with the reference's composed result in the result
    buffer: the kernel's product array is the reference's product, and the later lines are the same. -/
theorem algebraic : Cert.algebraic_KernelIdeal_ReferenceIdeal := by
  intro m ρ m' ρ' _ hagree
  refine ⟨fun c => Cert.ReferenceIdeal.Value.res_main_v60 m' c, ?_, ?_⟩
  · exact (θ_run Cert.KernelIdeal.defs _ _).mono
      (fun r h c => ⟨Cert.SameTail.kernel_result m m' hagree r h c, Cert.KernelIdeal.Tiled.args_kept m r h c⟩)
      (Cert.KernelIdeal.Tiled.run_main m ρ)
  · exact Cert.ReferenceIdeal.Value.run (F := Ideal) m' ρ'

theorem claim : Cert.Claim :=
  ⟨Cert.Kernel.Gen.facts, Cert.KernelIdeal.Gen.facts, Cert.ReferenceIdeal.Gen.facts, Cert.Pre_finite_inputs.Gen.facts,
    frame_word, frame_ideal, frame_reference, trivial, algebraic⟩

end Cert.Proof

end
